-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S4096x16384 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S4096x16384 : Shape := ⟨2, ![4096, 16384]⟩
abbrev S16384 : Shape := ⟨1, ![16384]⟩
abbrev S8192x4096 : Shape := ⟨2, ![8192, 4096]⟩
abbrev S1x16384 : Shape := ⟨2, ![1, 16384]⟩
abbrev S4096x256 : Shape := ⟨2, ![4096, 256]⟩
abbrev S1x256 : Shape := ⟨2, ![1, 256]⟩
abbrev S256 : Shape := ⟨1, ![256]⟩
abbrev S8192x1 : Shape := ⟨2, ![8192, 1]⟩
abbrev S256x4096 : Shape := ⟨2, ![256, 4096]⟩
abbrev S256x1 : Shape := ⟨2, ![256, 1]⟩
abbrev S8192x16384 : Shape := ⟨2, ![8192, 16384]⟩
abbrev S1024x4096 : Shape := ⟨2, ![1024, 4096]⟩
abbrev S4096x512 : Shape := ⟨2, ![4096, 512]⟩
abbrev S1024x1 : Shape := ⟨2, ![1024, 1]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 11
  | .vmem => 24
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S8192x4096, .f32⟩
  | .hbm, ⟨4, _⟩ => ⟨S1x16384, .f32⟩
  | .hbm, ⟨5, _⟩ => ⟨S4096x16384, .bf16⟩
  | .hbm, ⟨6, _⟩ => ⟨S1x16384, .f32⟩
  | .hbm, ⟨7, _⟩ => ⟨S8192x4096, .bf16⟩
  | .hbm, ⟨8, _⟩ => ⟨S8192x1, .f32⟩
  | .hbm, ⟨9, _⟩ => ⟨S8192x16384, .f32⟩
  | .hbm, ⟨10, _⟩ => ⟨S4x2048x16384, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S256x1, .f32⟩
  | .local _ .vmem, ⟨11, _⟩ => ⟨S256x1, .f32⟩
  | .local _ .vmem, ⟨12, _⟩ => ⟨S1024x4096, .bf16⟩
  | .local _ .vmem, ⟨13, _⟩ => ⟨S1024x4096, .bf16⟩
  | .local _ .vmem, ⟨14, _⟩ => ⟨S4096x512, .bf16⟩
  | .local _ .vmem, ⟨15, _⟩ => ⟨S4096x512, .bf16⟩
  | .local _ .vmem, ⟨16, _⟩ => ⟨S1024x1, .f32⟩
  | .local _ .vmem, ⟨17, _⟩ => ⟨S1024x1, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S4x2048x4096_S8192x4096 : S4x2048x4096.ShapeCasts S8192x4096
  shapeCasts_S16384_S1x16384 : S16384.ShapeCasts S1x16384
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  inb_S1x256_S1x256_0_0 : ∀ a, (![0, 0] : Fin 2 → Nat) a + S1x256.size a ≤ S1x256.size a
  h_S1x256 : 0 < S1x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x16384.size a
  hwx0_0 : ∀ i : grid0.Coords, EltTy.bits .f32 = 32 ∨ (Rect.block (s := S4096x16384) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x16384.size a
  hwx0_1 : ∀ i : grid0.Coords, EltTy.bits .bf16 = 32 ∨ (Rect.block (s := S4096x16384) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x16384.size a
  hwx2_1 : ∀ i : grid2.Coords, EltTy.bits .bf16 = 32 ∨ (Rect.block (s := S4096x16384) S4096x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x16384.size a
  hwx2_3 : ∀ i : grid2.Coords, EltTy.bits .f32 = 32 ∨ (Rect.block (s := S1x16384) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x16384.size a
  hwx2_4 : ∀ i : grid2.Coords, EltTy.bits .f32 = 32 ∨ (Rect.block (s := S1x16384) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S8192x16384.size a
  hwx2_5 : ∀ i : grid2.Coords, EltTy.bits .f32 = 32 ∨ (Rect.block (s := S8192x16384) S1024x512.size (cc2_transform_5 i) (hinb2_5 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S4096x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S256x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3_0) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩
abbrev S1x16384 : Shape := ⟨2, ![1, 16384]⟩
abbrev S4x2048 : Shape := ⟨2, ![4, 2048]⟩
abbrev S4x2048x1 : Shape := ⟨3, ![4, 2048, 1]⟩
abbrev S4x2048x16384 : Shape := ⟨3, ![4, 2048, 16384]⟩
abbrev S1x1x16384 : Shape := ⟨3, ![1, 1, 16384]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S4096x16384, .f32⟩
  | .hbm, ⟨4, _⟩ => ⟨S_, .f32⟩
  | .hbm, ⟨5, _⟩ => ⟨S16384, .f32⟩
  | .hbm, ⟨6, _⟩ => ⟨S1x16384, .f32⟩
  | .hbm, ⟨7, _⟩ => ⟨S_, .f32⟩
  | .hbm, ⟨8, _⟩ => ⟨S1x16384, .f32⟩
  | .hbm, ⟨9, _⟩ => ⟨S1x16384, .f32⟩
  | .hbm, ⟨10, _⟩ => ⟨S_, .f32⟩
  | .hbm, ⟨11, _⟩ => ⟨S1x16384, .f32⟩
  | .hbm, ⟨12, _⟩ => ⟨S1x16384, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S4096x16384, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S_, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S4x2048x16384, .f32⟩
  | .hbm, ⟨56, _⟩ => ⟨S1x1x16384, .f32⟩
  | .hbm, ⟨57, _⟩ => ⟨S4x2048x16384, .f32⟩
  | .hbm, ⟨58, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  reducesTo_S4096x16384_S16384_d0 : S4096x16384.ReducesTo [0] S16384
  h_S_ : 0 < S_.numel
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S4096x16384_S4x2048x16384_2_0_01_1_n_n_wf : DotDims.WF S4x2048x4096 S4096x16384 S4x2048x16384 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf

class Facts : Prop extends Facts₀ where

variable [Facts]
-- ==== Proof.KernelRun.lean ====
/-
  The idealized kernel's run with its result named.  The program is five segments: the two host reshapes, the three
  launches, and the closing host reshape.  Every weakly fair execution ends with each unscoped buffer at the contents
  the segments' fold assigns it, so the result buffer holds the closing reshape of what the third launch leaves in
  its output array, and the three arguments are as launched.
-/
import proofs.«152927_j6047313952873_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the fold's
    contents of it after the closing host segment, and the arguments end as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.Spec.lean ====
/-
  The function both programs compute, entry by entry, on the extended reals.

  A family of numbers is binarised to its signs (+1 on the nonnegative entries, -1 on the negative ones) and carries
  one scale, its bound: the largest magnitude of the family plus 2^-23.  An entry of the result is the sum over the
  4096 contracted positions of the products of the two signs, times a quarter of the product of the two bounds (the
  row's and the column's), plus the bias of the column.
-/
import Idealize.ShloMosaic.PureOps.Ideal
import Idealize.ShloMosaic.Lib.ValueIdx

noncomputable section

namespace Cert.SignDense

open Idealize.ShloMosaic

/-- The sign of an entry as the kernels select it: the word of 1.0 where the entry is at least the word of 0.0,
    the word of -1.0 elsewhere. -/
def sgn (v : EReal) : EReal :=
  Scalar.select (Ideal.cmp .oge v (Ideal.ofBits .f32 0x00000000#32)) (Ideal.ofBits .f32 0x3F800000#32)
    (Ideal.ofBits .f32 0xBF800000#32)

/-- The bound of a family: the maximum of the magnitudes max v (-v), folded from the word of -infinity, plus the word
    of 2^-23. -/
def bound {n : ℕ} (f : Fin n → EReal) : EReal :=
  (Finset.univ : Finset (Fin n)).fold max (Ideal.ofBits .f32 0xFF800000#32) (fun d => max (f d) (-(f d)))
    + Ideal.ofBits .f32 0x34000000#32

/-- One entry of the result from its row x of the activations, its column k of the weights and its bias:
    (the sum of the sign products) times ((the word of 0.25 times the row's bound) times the column's bound), plus the bias. -/
def entry (x k : Fin 4096 → EReal) (bias : EReal) : EReal :=
  (∑ d : Fin 4096, sgn (x d) * sgn (k d)) * ((Ideal.ofBits .f32 0x3E800000#32 * bound x) * bound k) + bias

end Cert.SignDense

end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.HostStages.lean ====
/-
  The host operations around the three launches, read as values.  Before the first launch the activations are
  re-laid from 4 x 2048 x 4096 to 8192 x 4096 (row b * 2048 + s is the old row (b, s)) and the bias from a vector of
  16384 to one row; the weights are not touched.  After the third launch its 8192 x 16384 output is re-laid to
  4 x 2048 x 16384 the same way.
-/
import proofs.«152927_j6047313952873_2_alg».proof.Proof.KernelRun
import proofs.«152927_j6047313952873_2_alg».proof.Proof.LibMergeRows
import Idealize.ShloMosaic.Lib.StableHlo.Run
import Idealize.ShloMosaic.Lib.ValueLayout
import Idealize.ShloMosaic.PureOps.Ideal

set_option maxRecDepth 16384

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The result is the third launch's output array re-laid to three axes. -/
theorem result_eq (c : Dev nD) : W5 m ρ c (Proc.devRef .tc main_v5)
    = shapeCast S4x2048x16384 (W4 m ρ c (Proc.devRef .tc main_v4)) shapeCasts_S8192x16384_S4x2048x16384 := by
  show StableHlo.after hostOps3 (W4 m ρ c) (Proc.devRef .tc main_v5) = _
  after_results
  rfl

/-- Entry (b, s, f) of the result is entry (b * 2048 + s, f) of that output array. -/
theorem result_apply (c : Dev nD) (b : Fin 4) (s : Fin 2048) (f : Fin 16384) (r : Fin 8192) (hr : r.val = b.val * 2048 + s.val) :
    W5 m ρ c (Proc.devRef .tc main_v5) (ix3 b s f) = W4 m ρ c (Proc.devRef .tc main_v4) (ix2 r f) := by
  rw [result_eq]
  exact Cert.Lib.MergeRows.split_apply _ shapeCasts_S8192x16384_S4x2048x16384 b s f r hr

/-- The re-laid activations the second launch reads. -/
theorem rows_eq (c : Dev nD) : W1 m ρ c (Proc.devRef .tc main_v0)
    = shapeCast S8192x4096 (m ((c : Thread nD τ).loc main_arg0)) shapeCasts_S4x2048x4096_S8192x4096 := by
  show StableHlo.after hostOps0 (W0 m ρ c) (Proc.devRef .tc main_v0) = _
  after_results
  rfl

/-- Entry (b * 2048 + s, d) of the re-laid activations is entry (b, s, d) of the argument. -/
theorem rows_apply (c : Dev nD) (b : Fin 4) (s : Fin 2048) (d : Fin 4096) (r : Fin 8192) (hr : r.val = b.val * 2048 + s.val) :
    W1 m ρ c (Proc.devRef .tc main_v0) (ix2 r d) = m ((c : Thread nD τ).loc main_arg0) (ix3 b s d) := by
  rw [rows_eq]
  exact Cert.Lib.MergeRows.merge_apply _ shapeCasts_S4x2048x4096_S8192x4096 b s d r hr

/-- The bias as one row. -/
theorem bias_eq (c : Dev nD) : W1 m ρ c (Proc.devRef .tc main_v1)
    = shapeCast S1x16384 (m ((c : Thread nD τ).loc main_arg2)) shapeCasts_S16384_S1x16384 := by
  show StableHlo.after hostOps0 (W0 m ρ c) (Proc.devRef .tc main_v1) = _
  after_results
  rfl

/-- Entry (0, f) of the bias row is entry f of the argument. -/
theorem bias_apply (c : Dev nD) (u : Fin 1) (f : Fin 16384) :
    W1 m ρ c (Proc.devRef .tc main_v1) (ix2 u f) = m ((c : Thread nD τ).loc main_arg2) (ix1 f) := by
  rw [bias_eq]
  exact shapeCast_a_1a_apply _ shapeCasts_S16384_S1x16384 u f

/-- The weights reach the first launch as launched. -/
theorem weights_eq (c : Dev nD) : W1 m ρ c (Proc.devRef .tc main_arg1) = m ((c : Thread nD τ).loc main_arg1) := by
  show StableHlo.after hostOps0 (W0 m ρ c) (Proc.devRef .tc main_arg1) = _
  after_results

end Cert.KernelIdeal.HostStages

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.DensePayload.lean ====
/-
  One entry of the block the matrix-product launch stores: at row p and column q of a 1024 x 512 block, the sum over
  the 4096 contracted positions of the products of the two sign blocks, times ((a quarter of the row scale) times the
  column scale), plus the bias of the column.  The row scale is a 1024 x 1 column and the column scale and the bias
  are 1 x 512 rows, each spread over the block.
-/
import proofs.«152927_j6047313952873_2_alg».proof.Proof.Gen.KernelIdeal.Skeleton
import proofs.«152927_j6047313952873_2_alg».proof.Proof.LibKeepdims
import proofs.«152927_j6047313952873_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.ValueIdx

/-- The stored block at (p, q). -/
theorem pay_apply (v0 : Vec Ideal S1024x4096 .bf16) (v2 : Vec Ideal S4096x512 .bf16) (v5 : Vec Ideal S1024x1 .f32)
    (v9 v15 : Vec Ideal S1x512 .f32) (p : Fin 1024) (q : Fin 512) :
    k2_pay1 (F := Ideal) v0 v2 v5 v9 v15 (ix2 p q)
      = (∑ k : Fin 4096, v0 (ix2 p k) * v2 (ix2 k q))
          * ((Ideal.ofBits .f32 0x3E800000#32 * v5 (ix2 p (0 : Fin 1))) * v9 (ix2 (0 : Fin 1) q))
        + v15 (ix2 (0 : Fin 1) q) := by
  unfold k2_pay1
  simp only [shapeCast_self]
  have hm := Idealize.ShloMosaic.PlainMatmul.matmul_zero_apply
    dot_S1024x4096_S4096x512_S1024x512_1_0_0_1_n_n rfl rfl rfl rfl rfl rfl (φ₁ := .bf16) (φ₂ := .bf16) none v0 v2 p q
  have hr := Cert.Lib.Keepdims.broadcastTo_a1_ab_apply
    (mulf (broadcast S1024x1 (Scalar.ofBits (F := Ideal) .f32 0x3E800000#32)) v5) broadcasts_S1024x1_S1024x512 p q
  have hc : ∀ v : Vec Ideal S1x512 .f32,
      broadcastTo S1024x512 v broadcasts_S1x512_S1024x512 (ix2 p q) = v (ix2 (0 : Fin 1) q) :=
    fun v => broadcastTo_1b_ab_apply v broadcasts_S1x512_S1024x512 p q
  exact congrArg₂ (· + ·) (congrArg₂ (· * ·) hm (congrArg₂ (· * ·) hr (hc v9))) (hc v15)

/-- The same at any index of the block, by its two coordinates. -/
theorem pay_at (v0 : Vec Ideal S1024x4096 .bf16) (v2 : Vec Ideal S4096x512 .bf16) (v5 : Vec Ideal S1024x1 .f32)
    (v9 v15 : Vec Ideal S1x512 .f32) (j : S1024x512.Idx) :
    k2_pay1 (F := Ideal) v0 v2 v5 v9 v15 j
      = (∑ k : Fin 4096, v0 (ix2 (j 0) k) * v2 (ix2 k (j 1)))
          * ((Ideal.ofBits .f32 0x3E800000#32 * v5 (ix2 (j 0) (0 : Fin 1))) * v9 (ix2 (0 : Fin 1) (j 1)))
        + v15 (ix2 (0 : Fin 1) (j 1)) :=
  (congrArg (k2_pay1 (F := Ideal) v0 v2 v5 v9 v15) (eq_ix2 j)).trans (pay_apply v0 v2 v5 v9 v15 (j 0) (j 1))

end Cert.KernelIdeal.Dense

end
-- ==== Proof.Region2.lean ====
/-
  What the matrix-product launch leaves in its 8192 x 16384 output array, as one function of the five arrays it reads
  as it finds them: the sign matrix of the activations (8192 x 4096), the sign matrix of the weights (4096 x 16384), the
  column of row scales (8192 x 1), the row of column scales and the row of biases (1 x 16384 each).  The grid is 8 x 32;
  point (a, b) reads rows 1024 a .. 1024 a + 1023 of the first and third arrays and columns 512 b .. 512 b + 511 of the
  others and writes block (a, b) of the output, and these 256 blocks tile the output.
-/
import proofs.«152927_j6047313952873_2_alg».proof.Proof.Gen.KernelIdeal.Frame
import proofs.«152927_j6047313952873_2_alg».proof.Proof.DensePayload
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array's entry at (r, f): the row r of the first array against the column f of the second, scaled by
    a quarter of the r-th row scale times the f-th column scale, plus the f-th bias. -/
def G (a0 : S8192x4096.Idx → EReal) (a1 : S4096x16384.Idx → EReal) (a2 : S8192x1.Idx → EReal)
    (a3 a4 : S1x16384.Idx → EReal) : S8192x16384.Idx → EReal := fun i =>
  (∑ k : Fin 4096, a0 (ix2 (i 0) k) * a1 (ix2 k (i 1)))
      * ((Ideal.ofBits .f32 0x3E800000#32 * a2 (ix2 (i 0) (0 : Fin 1))) * a3 (ix2 (0 : Fin 1) (i 1)))
    + a4 (ix2 (0 : Fin 1) (i 1))

/-- The entry of G at (r, f), spelt out. -/
theorem G_apply (a0 : S8192x4096.Idx → EReal) (a1 : S4096x16384.Idx → EReal) (a2 : S8192x1.Idx → EReal)
    (a3 a4 : S1x16384.Idx → EReal) (r : Fin 8192) (f : Fin 16384) :
    G a0 a1 a2 a3 a4 (ix2 r f)
      = (∑ k : Fin 4096, a0 (ix2 r k) * a1 (ix2 k f))
          * ((Ideal.ofBits .f32 0x3E800000#32 * a2 (ix2 r (0 : Fin 1))) * a3 (ix2 (0 : Fin 1) f))
        + a4 (ix2 (0 : Fin 1) f) := rfl

/-- The index maps over the 256 grid points: the row-blocked windows follow the output's row block, the
    column-blocked ones its column block, and the other coordinate of each is block 0. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = win2_5.index t (1 : Fin 2)
    ∧ win2_2.index t (0 : Fin 2) = win2_5.index t (0 : Fin 2) ∧ win2_2.index t (1 : Fin 2) = 0
    ∧ win2_3.index t (0 : Fin 2) = 0 ∧ win2_3.index t (1 : Fin 2) = win2_5.index t (1 : Fin 2)
    ∧ win2_4.index t (0 : Fin 2) = 0 ∧ win2_4.index t (1 : Fin 2) = win2_5.index t (1 : Fin 2)
    ∧ win2_5.index t (0 : Fin 2) ≤ 7 ∧ win2_5.index t (1 : Fin 2) ≤ 31 :=
  (by decide +kernel : ∀ t : Fin grid2.N, _)

/-- Every block of the 8 x 32 tiling is some point's. -/
theorem idx_onto : ∀ (q0 : Fin 8) (q1 : Fin 32), ∃ t : Fin cfg2.N, win2_5.index t = ![q0.val, q1.val] :=
  (by decide +kernel : ∀ (q0 : Fin 8) (q1 : Fin 32), ∃ t : Fin grid2.N, win2_5.index t = ![q0.val, q1.val])

set_option backward.isDefEq.respectTransparency.types false in
/-- What point t writes back to the output array is block t of G of the five arrays as the launch finds them. -/
theorem flushed_eq (c : Dev nD) (t : Fin cfg2.N) :
    (dat2 (F := Ideal) V c).flushed 5 t = ((cfg2.win 5).blk t).view.read (Elt Ideal)
      (G (V c main_v3_0) (V c main_v2_0) (V c main_v3_1) (V c main_v2_1) (V c main_v1)) := by
  show (cfg2.win 5).cut (grid2.coords t) ((dat2 (F := Ideal) V c).after 5 t) = _
  rw [after2_5]
  unfold out2_5
  rw [View.canon_unit_zero hz]
  simp only [View.ld_unit_zero (S := S1024x4096) hz, View.ld_unit_zero (S := S4096x512) hz,
    View.ld_unit_zero (S := S1024x1) hz, View.ld_unit_zero (S := S1x512) hz]
  obtain ⟨e0, e1, e2, e3, e4, e5, e6, e7, e8, e9, e10, e11⟩ := idx_facts t
  funext j
  show k2_pay1 (F := Ideal) (iblk2 V c 0 t) (iblk2 V c 1 t) (iblk2 V c 2 t) (iblk2 V c 3 t) (iblk2 V c 4 t) j
    = G (V c main_v3_0) (V c main_v2_0) (V c main_v3_1) (V c main_v2_1) (V c main_v1) (((cfg2.win 5).blk t).view.emb j)
  refine (pay_at (iblk2 V c 0 t) (iblk2 V c 1 t) (iblk2 V c 2 t) (iblk2 V c 3 t) (iblk2 V c 4 t) j).trans ?_
  have h0 : ∀ k : Fin 4096, ((cfg2.win 0).blk t).view.emb (ix2 (j 0) k)
      = (ix2 ((((cfg2.win 5).blk t).view.emb j) 0) k : S8192x4096.Idx) := by
    intro k; funext a; apply Fin.ext
    match a with
    | ⟨0, _⟩ => show win2_0.index t (0 : Fin 2) * 1024 + 1 * (j 0).val = win2_5.index t (0 : Fin 2) * 1024 + 1 * (j 0).val; omega
    | ⟨1, _⟩ => show win2_0.index t (1 : Fin 2) * 4096 + 1 * k.val = k.val; omega
  have h1 : ∀ k : Fin 4096, ((cfg2.win 1).blk t).view.emb (ix2 k (j 1))
      = (ix2 k ((((cfg2.win 5).blk t).view.emb j) 1) : S4096x16384.Idx) := by
    intro k; funext a; apply Fin.ext
    match a with
    | ⟨0, _⟩ => show win2_1.index t (0 : Fin 2) * 4096 + 1 * k.val = k.val; omega
    | ⟨1, _⟩ => show win2_1.index t (1 : Fin 2) * 512 + 1 * (j 1).val = win2_5.index t (1 : Fin 2) * 512 + 1 * (j 1).val; omega
  have h2 : ((cfg2.win 2).blk t).view.emb (ix2 (j 0) (0 : Fin 1))
      = (ix2 ((((cfg2.win 5).blk t).view.emb j) 0) (0 : Fin 1) : S8192x1.Idx) := by
    funext a; apply Fin.ext
    match a with
    | ⟨0, _⟩ => show win2_2.index t (0 : Fin 2) * 1024 + 1 * (j 0).val = win2_5.index t (0 : Fin 2) * 1024 + 1 * (j 0).val; omega
    | ⟨1, _⟩ => show win2_2.index t (1 : Fin 2) * 1 + 1 * 0 = 0; omega
  have h3 : ((cfg2.win 3).blk t).view.emb (ix2 (0 : Fin 1) (j 1))
      = (ix2 (0 : Fin 1) ((((cfg2.win 5).blk t).view.emb j) 1) : S1x16384.Idx) := by
    funext a; apply Fin.ext
    match a with
    | ⟨0, _⟩ => show win2_3.index t (0 : Fin 2) * 1 + 1 * 0 = 0; omega
    | ⟨1, _⟩ => show win2_3.index t (1 : Fin 2) * 512 + 1 * (j 1).val = win2_5.index t (1 : Fin 2) * 512 + 1 * (j 1).val; omega
  have h4 : ((cfg2.win 4).blk t).view.emb (ix2 (0 : Fin 1) (j 1))
      = (ix2 (0 : Fin 1) ((((cfg2.win 5).blk t).view.emb j) 1) : S1x16384.Idx) := by
    funext a; apply Fin.ext
    match a with
    | ⟨0, _⟩ => show win2_4.index t (0 : Fin 2) * 1 + 1 * 0 = 0; omega
    | ⟨1, _⟩ => show win2_4.index t (1 : Fin 2) * 512 + 1 * (j 1).val = win2_5.index t (1 : Fin 2) * 512 + 1 * (j 1).val; omega
  have key : ∀ (A0 : S8192x4096.Idx → EReal) (A1 : S4096x16384.Idx → EReal) (A2 : S8192x1.Idx → EReal)
      (A3 A4 : S1x16384.Idx → EReal),
      (∑ k : Fin 4096, A0 (((cfg2.win 0).blk t).view.emb (ix2 (j 0) k)) * A1 (((cfg2.win 1).blk t).view.emb (ix2 k (j 1))))
          * ((Ideal.ofBits .f32 0x3E800000#32 * A2 (((cfg2.win 2).blk t).view.emb (ix2 (j 0) (0 : Fin 1))))
              * A3 (((cfg2.win 3).blk t).view.emb (ix2 (0 : Fin 1) (j 1))))
          + A4 (((cfg2.win 4).blk t).view.emb (ix2 (0 : Fin 1) (j 1)))
        = G A0 A1 A2 A3 A4 (((cfg2.win 5).blk t).view.emb j) := by
    intro A0 A1 A2 A3 A4
    simp only [h0, h1, h2, h3, h4]
    rfl
  exact key (V c main_v3_0) (V c main_v2_0) (V c main_v3_1) (V c main_v2_1) (V c main_v1)

/-- An index of the output array is in point t's block iff each coordinate is in the block's range on its axis. -/
theorem mem_blk (t : Fin cfg2.N) (i : S8192x16384.Idx) :
    i ∈ ((cfg2.win 5).blk t).view.set ↔ ∀ a : Fin 2, win2_5.index t a * S1024x512.size a ≤ (i a).val
      ∧ (i a).val < win2_5.index t a * S1024x512.size a + S1024x512.size a := by
  show i ∈ ((View.whole main_v4).slice (win2_5.rect t)).set ↔ _
  rw [View.set_slice_whole, Rect.mem_set_unit]
  exact Iff.rfl

/-- The blocks tile the output: entry (r, f) lies in the block of the point with row block r / 1024 and column
    block f / 512. -/
theorem cover (i : S8192x16384.Idx) :
    ∃ t : Fin cfg2.N, (cfg2.win 5).flush t = true ∧ i ∈ ((cfg2.win 5).blk t).view.set := by
  have hi0 : (i 0).val < 8192 := (i 0).isLt
  have hi1 : (i 1).val < 16384 := (i 1).isLt
  obtain ⟨t, ht⟩ := idx_onto ⟨(i 0).val / 1024, by omega⟩ ⟨(i 1).val / 512, by omega⟩
  have q0 : win2_5.index t (0 : Fin 2) = (i 0).val / 1024 := congrFun ht 0
  have q1 : win2_5.index t (1 : Fin 2) = (i 1).val / 512 := congrFun ht 1
  refine ⟨t, flush2_5 t, ?_⟩
  rw [mem_blk]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 512 ≤ (i 1).val ∧ (i 1).val < win2_5.index t (1 : Fin 2) * 512 + 512; omega

/-- The output array after the launch is G of the five arrays as the launch finds them. -/
theorem final (c : Dev nD) : (dat2 (F := Ideal) V c).arrAt 5 cfg2.N
    = G (V c main_v3_0) (V c main_v2_0) (V c main_v3_1) (V c main_v2_1) (V c main_v1) :=
  (dat2 (F := Ideal) V c).arrAt_eq_of_cover 5 _ (fun t _ => flushed_eq V c t) cover

end Cert.KernelIdeal.Dense

end
-- ==== Proof.LibRowMax.lean ====
/-
  The maximum along the last axis of a two-axis array, read at a row.

  A `multi_reduction <maximumf>` of an [a, b] array over axis 1, read at row i, is the fold of `max`, from the value
  of the accumulator's word, over the entries (i, k), k ranging over the b columns: the kept index i with the dropped
  coordinate k put back is (i, k).
-/
import Idealize.ShloMosaic.Lib.Pipeline.Value
import Idealize.ShloMosaic.Lib.ValueIdx
import Idealize.ShloMosaic.PureOps.Ideal.Laws

namespace Cert.Lib.RowMax

open Idealize.ShloMosaic Idealize.ShloMosaic.ValueIdx

/-- Dropping the last axis of [a, b]: the kept index i with coordinate k put back is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A maximum along the last axis of [a, b], at row i: the fold of max from the start value over the entries (i, k). -/
theorem max_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => (Finset.univ : Finset (Fin b)).fold max (Ideal.ofBits φ acc) f)
      (funext fun k => congrArg src (lift_row h i k)))

end Cert.Lib.RowMax
-- ==== Proof.LibColMax.lean ====
/-
  The maximum along the first axis of a two-axis array, read at a column.

  A `multi_reduction <maximumf>` of an [a, b] array over axis 0, read at column j, is the fold of `max`, from the value
  of the accumulator's word, over the entries (k, j), k ranging over the a rows: the kept index j with the dropped
  coordinate k put back is (k, j).
-/
import Idealize.ShloMosaic.Lib.Pipeline.Value
import Idealize.ShloMosaic.Lib.ValueIdx
import Idealize.ShloMosaic.PureOps.Ideal.Laws

namespace Cert.Lib.ColMax

open Idealize.ShloMosaic Idealize.ShloMosaic.ValueIdx

/-- Dropping the first axis of [a, b]: the kept index j with coordinate k put back is (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext d; apply Fin.ext
  fin_cases d <;> rfl

variable {φ : FTy}

/-- A maximum along the first axis of [a, b], at column j: the fold of max from the start value over the entries (k, j). -/
theorem max_col_apply {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (j : Fin b) :
    multiReduction .maximumf [0] ⟨1, ![b]⟩ src acc h hφ hacc (ix1 j)
      = (Finset.univ : Finset (Fin a)).fold max (Ideal.ofBits φ acc) (fun k => src (ix2 k j)) :=
  (Ideal.multiReduction_maximumf_single src acc h hφ hacc (ix1 j)).trans
    (congrArg (fun f => (Finset.univ : Finset (Fin a)).fold max (Ideal.ofBits φ acc) f)
      (funext fun k => congrArg src (lift_col h j k)))

end Cert.Lib.ColMax
-- ==== Proof.BlockSigns.lean ====
/-
  The two binarising bodies, read at an index.

  A block of numbers is turned into its signs entry by entry: the stored word at a position is the sign of the
  loaded word at that position, since a comparison, a selection and a change of float format act entry by entry
  and the change of format is the identity on the extended reals.  The stored bound of a column (of a row) is the
  maximum of the magnitudes of that column's (row's) entries, folded from the word of -infinity, plus the word of
  2^-23: the magnitude of v is max v (-v), the reduction over one axis read at the kept index is the fold of max
  over the dropped coordinate, and the re-laying of the vector of maxima as one row (one column) moves no entry.
-/
import proofs.«152927_j6047313952873_2_alg».proof.Proof.Gen.KernelIdeal.Skeleton
import proofs.«152927_j6047313952873_2_alg».proof.Proof.Spec
import proofs.«152927_j6047313952873_2_alg».proof.Proof.LibRowMax
import proofs.«152927_j6047313952873_2_alg».proof.Proof.LibColMax
import proofs.«152927_j6047313952873_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Binarise

open Cert.KernelIdeal Idealize.ShloMosaic Idealize.ShloMosaic.ValueIdx

variable {φ : FTy}

/-- The magnitude of an entry. -/
theorem absf_apply' {s : Shape} (a : FVec Ideal s φ) (i : s.Idx) : absf a i = max (a i) (-(a i)) := rfl

/-- The offsets of a whole-block access, however the zeros are spelt. -/
theorem zero_offsets : (![0, 0] : Fin 2 → Nat) = fun _ => 0 := funext fun a => by fin_cases a <;> rfl

/-! ## Signs -/

/-- The weights' body stores, at each position, the sign of the loaded entry there. -/
theorem weights_sign_at (x0 : Vec Ideal S4096x256 .f32) (y : S4096x256.Idx) :
    Gen.k0_pay2 (F := Ideal) x0 y = Cert.SignDense.sgn (x0 y) := rfl

/-- The same at coordinates (d, j). -/
theorem weights_sign_apply (x0 : Vec Ideal S4096x256 .f32) (d : Fin 4096) (j : Fin 256) :
    Gen.k0_pay2 (F := Ideal) x0 (ix2 d j) = Cert.SignDense.sgn (x0 (ix2 d j)) := weights_sign_at x0 _

/-- The activations' body first re-lays its block in its own shape, which moves nothing. -/
theorem acts_relay (x0 : Vec Ideal S256x4096 .f32) : Gen.k1_pay1 (F := Ideal) x0 = x0 :=
  shapeCast_self x0 _

/-- The activations' body stores, at each position, the sign of the re-laid entry there. -/
theorem acts_sign_relaid (x0 : Vec Ideal S256x4096 .f32) (y : S256x4096.Idx) :
    Gen.k1_pay3 (F := Ideal) x0 y = Cert.SignDense.sgn (Gen.k1_pay1 (F := Ideal) x0 y) := rfl

/-- The activations' body stores, at each position, the sign of the loaded entry there. -/
theorem acts_sign_at (x0 : Vec Ideal S256x4096 .f32) (y : S256x4096.Idx) :
    Gen.k1_pay3 (F := Ideal) x0 y = Cert.SignDense.sgn (x0 y) :=
  (acts_sign_relaid x0 y).trans (congrArg (fun v => Cert.SignDense.sgn (v y)) (acts_relay x0))

/-- The same at coordinates (r, d). -/
theorem acts_sign_apply (x0 : Vec Ideal S256x4096 .f32) (r : Fin 256) (d : Fin 4096) :
    Gen.k1_pay3 (F := Ideal) x0 (ix2 r d) = Cert.SignDense.sgn (x0 (ix2 r d)) := acts_sign_at x0 _

/-! ## Bounds -/

/-- The weights' body stores, at (u, j) of its one row, the bound of column j of the loaded block. -/
theorem weights_bound_apply (x0 : Vec Ideal S4096x256 .f32) (u : Fin 1) (j : Fin 256) :
    Gen.k0_pay1 (F := Ideal) x0 (ix2 u j) = Cert.SignDense.bound (fun d : Fin 4096 => x0 (ix2 d j)) := by
  unfold Gen.k0_pay1 Cert.SignDense.bound
  dsimp only
  rw [addf_apply, broadcast_apply, Ideal.ofBits_def]
  refine congrArg (· + Ideal.ofBits .f32 0x34000000#32) ?_
  refine (shapeCast_a_1a_apply _ _ u j).trans ?_
  refine (Cert.Lib.ColMax.max_col_apply _ _ _ _ _ j).trans ?_
  exact congrArg (fun f => (Finset.univ : Finset (Fin 4096)).fold max (Ideal.ofBits .f32 0xFF800000#32) f)
    (funext fun d => absf_apply' x0 (ix2 d j))

/-- The same at any position y of the one row: the bound of column y 1. -/
theorem weights_bound_at (x0 : Vec Ideal S4096x256 .f32) (y : S1x256.Idx) :
    Gen.k0_pay1 (F := Ideal) x0 y = Cert.SignDense.bound (fun d : Fin 4096 => x0 (ix2 d (y 1))) := by
  obtain ⟨u, j, rfl⟩ : ∃ (u : Fin 1) (j : Fin 256), y = ix2 u j := ⟨y 0, y 1, eq_ix2 y⟩
  exact weights_bound_apply x0 u j

/-- The activations' body stores, at (r, u) of its one column, the bound of row r of the loaded block. -/
theorem acts_bound_apply (x0 : Vec Ideal S256x4096 .f32) (r : Fin 256) (u : Fin 1) :
    Gen.k1_pay2 (F := Ideal) x0 (ix2 r u) = Cert.SignDense.bound (fun d : Fin 4096 => x0 (ix2 r d)) := by
  unfold Gen.k1_pay2 Cert.SignDense.bound
  dsimp only
  rw [addf_apply, broadcast_apply, Ideal.ofBits_def, acts_relay]
  refine congrArg (· + Ideal.ofBits .f32 0x34000000#32) ?_
  refine (Cert.Lib.Keepdims.shapeCast_a_a1_apply _ _ r u).trans ?_
  refine (Cert.Lib.RowMax.max_row_apply _ _ _ _ _ r).trans ?_
  exact congrArg (fun f => (Finset.univ : Finset (Fin 4096)).fold max (Ideal.ofBits .f32 0xFF800000#32) f)
    (funext fun d => absf_apply' x0 (ix2 r d))

/-- The same at any position y of the one column: the bound of row y 0. -/
theorem acts_bound_at (x0 : Vec Ideal S256x4096 .f32) (y : S256x1.Idx) :
    Gen.k1_pay2 (F := Ideal) x0 y = Cert.SignDense.bound (fun d : Fin 4096 => x0 (ix2 (y 0) d)) := by
  obtain ⟨r, u, rfl⟩ : ∃ (r : Fin 256) (u : Fin 1), y = ix2 r u := ⟨y 0, y 1, eq_ix2 y⟩
  exact acts_bound_apply x0 r u

end Cert.KernelIdeal.Binarise

end
-- ==== Proof.Region0.lean ====
/-
  What the weights' binarising launch leaves in its two output arrays, as functions of the 4096 x 16384 weight array
  as the launch finds it.  The grid has 64 points; point t reads columns 256 t .. 256 t + 255 of the weights (all 4096
  rows), writes the signs of that block to the same columns of the sign array, and writes the 256 column bounds to
  columns 256 t .. 256 t + 255 of the one-row bound array.  The 64 blocks tile each output, so the sign array ends
  holding the sign of every weight and the bound array the bound of every column.
-/
import proofs.«152927_j6047313952873_2_alg».proof.Proof.Gen.KernelIdeal.Frame
import proofs.«152927_j6047313952873_2_alg».proof.Proof.BlockSigns
import Idealize.ShloMosaic.Lib.Pipeline.Value

set_option maxRecDepth 16384

noncomputable section

namespace Cert.KernelIdeal.Binarise

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the 64 grid points: each of the three windows sits at row block 0 and at the
    column block numbered by the point. -/
theorem weights_idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-! ## The sign array -/

set_option backward.isDefEq.respectTransparency.types false in
/-- What point t writes back to the sign array is block t of the signs of the weights as the launch finds them. -/
theorem weights_signs_flushed (c : Dev nD) (t : Fin cfg0.N) :
    (dat0 (F := Ideal) V c).flushed 1 t = ((cfg0.win 1).blk t).view.read (Elt Ideal)
      (fun i : S4096x16384.Idx => Cert.SignDense.sgn ((V c main_arg1 : S4096x16384.Idx → EReal) i)) := by
  show (cfg0.win 1).cut (grid0.coords t) ((dat0 (F := Ideal) V c).after 1 t) = _
  rw [after0_1]
  unfold out0_1
  rw [View.canon_unit_zero zero_offsets]
  simp only [View.ld_unit_zero (S := S4096x256) zero_offsets]
  obtain ⟨e0, e1, e2, e3, e4, e5⟩ := weights_idx_facts t
  funext y
  show k0_pay2 (F := Ideal) (iblk0 V c 0 t) y
    = Cert.SignDense.sgn ((V c main_arg1 : S4096x16384.Idx → EReal) (((cfg0.win 1).blk t).view.emb y))
  refine (weights_sign_at (iblk0 V c 0 t) y).trans ?_
  have h : ((cfg0.win 0).blk t).view.emb y = ((cfg0.win 1).blk t).view.emb y := by
    funext a; apply Fin.ext
    match a with
    | ⟨0, _⟩ => show win0_0.index t (0 : Fin 2) * 4096 + 1 * (y 0).val = win0_1.index t (0 : Fin 2) * 4096 + 1 * (y 0).val; omega
    | ⟨1, _⟩ => show win0_0.index t (1 : Fin 2) * 256 + 1 * (y 1).val = win0_1.index t (1 : Fin 2) * 256 + 1 * (y 1).val; omega
  show Cert.SignDense.sgn ((V c main_arg1 : S4096x16384.Idx → EReal) (((cfg0.win 0).blk t).view.emb y)) = _
  rw [h]

/-- An index of the sign array is in point t's block iff each coordinate is in the block's range on its axis. -/
theorem weights_signs_mem_blk (t : Fin cfg0.N) (i : S4096x16384.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v2_0).slice (win0_1.rect t)).set ↔ _
  rw [View.set_slice_whole, Rect.mem_set_unit]
  exact Iff.rfl

/-- The blocks tile the sign array: entry (d, f) lies in the block of point f / 256. -/
theorem weights_signs_cover (i : S4096x16384.Idx) :
    ∃ t : Fin cfg0.N, (cfg0.win 1).flush t = true ∧ i ∈ ((cfg0.win 1).blk t).view.set := by
  have hi0 : (i 0).val < 4096 := (i 0).isLt
  have hi1 : (i 1).val < 16384 := (i 1).isLt
  have hN : cfg0.N = 64 := N_0
  let t : Fin cfg0.N := ⟨(i 1).val / 256, by rw [hN]; omega⟩
  have ht : t.val = (i 1).val / 256 := rfl
  obtain ⟨e0, e1, e2, e3, e4, e5⟩ := weights_idx_facts t
  refine ⟨t, flush0_1 t, ?_⟩
  rw [weights_signs_mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 256 ≤ (i 1).val ∧ (i 1).val < win0_1.index t (1 : Fin 2) * 256 + 256; omega

/-- The sign array after the launch holds the sign of every weight. -/
theorem weights_signs_final (c : Dev nD) : (dat0 (F := Ideal) V c).arrAt 1 cfg0.N
    = fun i : S4096x16384.Idx => Cert.SignDense.sgn ((V c main_arg1 : S4096x16384.Idx → EReal) i) :=
  (dat0 (F := Ideal) V c).arrAt_eq_of_cover 1 _ (fun t _ => weights_signs_flushed V c t) weights_signs_cover

/-- The sign array after the launch, entry (d, f): the sign of the weight (d, f). -/
theorem region0_signs (c : Dev nD) (d : Fin 4096) (f : Fin 16384) :
    (dat0 (F := Ideal) V c).arrAt 1 cfg0.N (ix2 d f) = Cert.SignDense.sgn (V c main_arg1 (ix2 d f)) :=
  congrFun (weights_signs_final V c) (ix2 d f)

/-! ## The bound array -/

set_option backward.isDefEq.respectTransparency.types false in
/-- What point t writes back to the bound array is block t of the column bounds of the weights as the launch finds them. -/
theorem weights_bounds_flushed (c : Dev nD) (t : Fin cfg0.N) :
    (dat0 (F := Ideal) V c).flushed 2 t = ((cfg0.win 2).blk t).view.read (Elt Ideal)
      (fun i : S1x16384.Idx => Cert.SignDense.bound
        (fun d : Fin 4096 => (V c main_arg1 : S4096x16384.Idx → EReal) (ix2 d (i 1)))) := by
  show (cfg0.win 2).cut (grid0.coords t) ((dat0 (F := Ideal) V c).after 2 t) = _
  rw [after0_2]
  unfold out0_2
  rw [View.canon_unit_zero zero_offsets]
  simp only [View.ld_unit_zero (S := S4096x256) zero_offsets]
  obtain ⟨e0, e1, e2, e3, e4, e5⟩ := weights_idx_facts t
  funext y
  show k0_pay1 (F := Ideal) (iblk0 V c 0 t) y
    = Cert.SignDense.bound (fun d : Fin 4096 =>
        (V c main_arg1 : S4096x16384.Idx → EReal) (ix2 d ((((cfg0.win 2).blk t).view.emb y) 1)))
  refine (weights_bound_at (iblk0 V c 0 t) y).trans ?_
  have h : ∀ d : Fin 4096, ((cfg0.win 0).blk t).view.emb (ix2 d (y 1))
      = (ix2 d ((((cfg0.win 2).blk t).view.emb y) 1) : S4096x16384.Idx) := by
    intro d; funext a; apply Fin.ext
    match a with
    | ⟨0, _⟩ => show win0_0.index t (0 : Fin 2) * 4096 + 1 * d.val = d.val; omega
    | ⟨1, _⟩ => show win0_0.index t (1 : Fin 2) * 256 + 1 * (y 1).val = win0_2.index t (1 : Fin 2) * 256 + 1 * (y 1).val; omega
  show Cert.SignDense.bound (fun d : Fin 4096 =>
      (V c main_arg1 : S4096x16384.Idx → EReal) (((cfg0.win 0).blk t).view.emb (ix2 d (y 1)))) = _
  simp only [h]

/-- An index of the bound array is in point t's block iff each coordinate is in the block's range on its axis. -/
theorem weights_bounds_mem_blk (t : Fin cfg0.N) (i : S1x16384.Idx) :
    i ∈ ((cfg0.win 2).blk t).view.set ↔ ∀ a : Fin 2, win0_2.index t a * S1x256.size a ≤ (i a).val
      ∧ (i a).val < win0_2.index t a * S1x256.size a + S1x256.size a := by
  show i ∈ ((View.whole main_v2_1).slice (win0_2.rect t)).set ↔ _
  rw [View.set_slice_whole, Rect.mem_set_unit]
  exact Iff.rfl

/-- The blocks tile the bound array: entry (0, f) lies in the block of point f / 256. -/
theorem weights_bounds_cover (i : S1x16384.Idx) :
    ∃ t : Fin cfg0.N, (cfg0.win 2).flush t = true ∧ i ∈ ((cfg0.win 2).blk t).view.set := by
  have hi0 : (i 0).val < 1 := (i 0).isLt
  have hi1 : (i 1).val < 16384 := (i 1).isLt
  have hN : cfg0.N = 64 := N_0
  let t : Fin cfg0.N := ⟨(i 1).val / 256, by rw [hN]; omega⟩
  have ht : t.val = (i 1).val / 256 := rfl
  obtain ⟨e0, e1, e2, e3, e4, e5⟩ := weights_idx_facts t
  refine ⟨t, flush0_2 t, ?_⟩
  rw [weights_bounds_mem_blk]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 256 ≤ (i 1).val ∧ (i 1).val < win0_2.index t (1 : Fin 2) * 256 + 256; omega

/-- The bound array after the launch holds the bound of every column of the weights. -/
theorem weights_bounds_final (c : Dev nD) : (dat0 (F := Ideal) V c).arrAt 2 cfg0.N
    = fun i : S1x16384.Idx => Cert.SignDense.bound
        (fun d : Fin 4096 => (V c main_arg1 : S4096x16384.Idx → EReal) (ix2 d (i 1))) :=
  (dat0 (F := Ideal) V c).arrAt_eq_of_cover 2 _ (fun t _ => weights_bounds_flushed V c t) weights_bounds_cover

/-- The bound array after the launch, entry (u, f): the bound of column f of the weights. -/
theorem region0_bounds (c : Dev nD) (u : Fin 1) (f : Fin 16384) :
    (dat0 (F := Ideal) V c).arrAt 2 cfg0.N (ix2 u f)
      = Cert.SignDense.bound (fun d : Fin 4096 => V c main_arg1 (ix2 d f)) :=
  congrFun (weights_bounds_final V c) (ix2 u f)

end Cert.KernelIdeal.Binarise

end
-- ==== Proof.Region1.lean ====
/-
  What the launch that binarises the activations leaves in its two output arrays, as functions of the 8192 x 4096
  input array as the launch finds it.  The grid has 32 points; point a reads rows 256 a .. 256 a + 255 of the input and
  writes the same rows of the sign array (8192 x 4096) and of the column of row bounds (8192 x 1), and these 32 row
  blocks tile both outputs.  Entry (r, d) of the sign array is the sign of the input's entry (r, d); entry (r, 0) of
  the column is the bound of row r of the input: the maximum of its magnitudes, from -infinity, plus 2^-23.
-/
import proofs.«152927_j6047313952873_2_alg».proof.Proof.Gen.KernelIdeal.Frame
import proofs.«152927_j6047313952873_2_alg».proof.Proof.Spec
import proofs.«152927_j6047313952873_2_alg».proof.Proof.BlockSigns
import Idealize.ShloMosaic.Lib.Pipeline.Value
import Idealize.ShloMosaic.Lib.ValueIdx

set_option maxRecDepth 16384

noncomputable section

namespace Cert.KernelIdeal.Binarise.R1

open Cert.KernelIdeal Cert.KernelIdeal.Gen Idealize.ShloMosaic Idealize.ShloMosaic.TcCoe Idealize.SL.Sem
open Idealize.ShloMosaic.ValueIdx
open Idealize.ShloMosaic.Pipeline (Dat)
open Cert.SignDense

/-! ## The blocks in the arrays -/

variable (V : (c : Dev nD) → (b : Ref sig .tc) → Buf (Elt Ideal) ((c : Thread nD τ).loc b))

/-- The sign array as a function of the input array: entry by entry its sign. -/
def Gs (a0 : S8192x4096.Idx → EReal) : S8192x4096.Idx → EReal := fun i => sgn (a0 i)

/-- The column of bounds as a function of the input array: at row r the bound of row r. -/
def Gb (a0 : S8192x4096.Idx → EReal) : S8192x1.Idx → EReal := fun i => bound (fun dd : Fin 4096 => a0 (ix2 (i 0) dd))

/-- The index maps over the 32 grid points: the three windows share their row block, every column block is
    block 0, and the row block is below 32. -/
theorem idx_facts : ∀ t : Fin cfg1.N,
    win1_0.index t (0 : Fin 2) = win1_1.index t (0 : Fin 2) ∧ win1_0.index t (1 : Fin 2) = 0
    ∧ win1_1.index t (1 : Fin 2) = 0
    ∧ win1_2.index t (0 : Fin 2) = win1_1.index t (0 : Fin 2) ∧ win1_2.index t (1 : Fin 2) = 0
    ∧ win1_1.index t (0 : Fin 2) ≤ 31 :=
  (by decide +kernel : ∀ t : Fin grid1.N, _)

/-- Every row block of the 32 is some point's, in both output windows. -/
theorem idx_onto : ∀ q0 : Fin 32, ∃ t : Fin cfg1.N,
    win1_1.index t = ![q0.val, 0] ∧ win1_2.index t = ![q0.val, 0] :=
  (by decide +kernel : ∀ q0 : Fin 32, ∃ t : Fin grid1.N, win1_1.index t = ![q0.val, 0] ∧ win1_2.index t = ![q0.val, 0])

set_option backward.isDefEq.respectTransparency.types false in
/-- What point t writes back to the sign array is block t of the signs of the input array as the launch finds it. -/
theorem flushed_signs (c : Dev nD) (t : Fin cfg1.N) :
    (dat1 (F := Ideal) V c).flushed 1 t = ((cfg1.win 1).blk t).view.read (Elt Ideal) (Gs (V c main_v0)) := by
  show (cfg1.win 1).cut (grid1.coords t) ((dat1 (F := Ideal) V c).after 1 t) = _
  rw [after1_1]
  unfold out1_1
  rw [View.canon_unit_zero zero_offsets]
  simp only [View.ld_unit_zero (S := S256x4096) zero_offsets]
  obtain ⟨e0, e1, e2, e3, e4, e5⟩ := idx_facts t
  funext j
  show k1_pay3 (F := Ideal) (iblk1 V c 0 t) j = Gs (V c main_v0) (((cfg1.win 1).blk t).view.emb j)
  refine (acts_sign_at (iblk1 V c 0 t) j).trans ?_
  have h0 : ((cfg1.win 0).blk t).view.emb j = (((cfg1.win 1).blk t).view.emb j : S8192x4096.Idx) := by
    funext a; apply Fin.ext
    match a with
    | ⟨0, _⟩ => show win1_0.index t (0 : Fin 2) * 256 + 1 * (j 0).val = win1_1.index t (0 : Fin 2) * 256 + 1 * (j 0).val; omega
    | ⟨1, _⟩ => show win1_0.index t (1 : Fin 2) * 4096 + 1 * (j 1).val = win1_1.index t (1 : Fin 2) * 4096 + 1 * (j 1).val; omega
  show sgn ((V c main_v0 : S8192x4096.Idx → EReal) (((cfg1.win 0).blk t).view.emb j)) = sgn _
  exact congrArg sgn (congrArg (V c main_v0 : S8192x4096.Idx → EReal) h0)

set_option backward.isDefEq.respectTransparency.types false in
/-- What point t writes back to the column of bounds is block t of the row bounds of the input array as the launch
    finds it. -/
theorem flushed_bounds (c : Dev nD) (t : Fin cfg1.N) :
    (dat1 (F := Ideal) V c).flushed 2 t = ((cfg1.win 2).blk t).view.read (Elt Ideal) (Gb (V c main_v0)) := by
  show (cfg1.win 2).cut (grid1.coords t) ((dat1 (F := Ideal) V c).after 2 t) = _
  rw [after1_2]
  unfold out1_2
  rw [View.canon_unit_zero zero_offsets]
  simp only [View.ld_unit_zero (S := S256x4096) zero_offsets]
  obtain ⟨e0, e1, e2, e3, e4, e5⟩ := idx_facts t
  funext j
  show k1_pay2 (F := Ideal) (iblk1 V c 0 t) j = Gb (V c main_v0) (((cfg1.win 2).blk t).view.emb j)
  refine (acts_bound_at (iblk1 V c 0 t) j).trans ?_
  have h0 : ∀ dd : Fin 4096, ((cfg1.win 0).blk t).view.emb (ix2 (j 0) dd)
      = (ix2 ((((cfg1.win 2).blk t).view.emb j) 0) dd : S8192x4096.Idx) := by
    intro dd; funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 4096 + 1 * dd.val = dd.val; omega
  show bound _ = bound _
  refine congrArg bound (funext fun dd => ?_)
  show (V c main_v0 : S8192x4096.Idx → EReal) (((cfg1.win 0).blk t).view.emb (ix2 (j 0) dd)) = _
  exact congrArg (V c main_v0 : S8192x4096.Idx → EReal) (h0 dd)

/-- An index of the sign array is in point t's block iff each coordinate is in the block's range on its axis. -/
theorem mem_blk_signs (t : Fin cfg1.N) (i : S8192x4096.Idx) :
    i ∈ ((cfg1.win 1).blk t).view.set ↔ ∀ a : Fin 2, win1_1.index t a * S256x4096.size a ≤ (i a).val
      ∧ (i a).val < win1_1.index t a * S256x4096.size a + S256x4096.size a := by
  show i ∈ ((View.whole main_v3_0).slice (win1_1.rect t)).set ↔ _
  rw [View.set_slice_whole, Rect.mem_set_unit]
  exact Iff.rfl

/-- An index of the column of bounds is in point t's block iff each coordinate is in the block's range on its axis. -/
theorem mem_blk_bounds (t : Fin cfg1.N) (i : S8192x1.Idx) :
    i ∈ ((cfg1.win 2).blk t).view.set ↔ ∀ a : Fin 2, win1_2.index t a * S256x1.size a ≤ (i a).val
      ∧ (i a).val < win1_2.index t a * S256x1.size a + S256x1.size a := by
  show i ∈ ((View.whole main_v3_1).slice (win1_2.rect t)).set ↔ _
  rw [View.set_slice_whole, Rect.mem_set_unit]
  exact Iff.rfl

/-- The row blocks tile the sign array: entry (r, d) lies in the block of the point with row block r / 256. -/
theorem cover_signs (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  obtain ⟨t, ht, -⟩ := idx_onto ⟨(i 0).val / 256, by omega⟩
  have q0 : win1_1.index t (0 : Fin 2) = (i 0).val / 256 := congrFun ht 0
  have q1 : win1_1.index t (1 : Fin 2) = 0 := congrFun ht 1
  refine ⟨t, flush1_1 t, ?_⟩
  rw [mem_blk_signs]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 4096 ≤ (i 1).val ∧ (i 1).val < win1_1.index t (1 : Fin 2) * 4096 + 4096; omega

/-- The row blocks tile the column of bounds: entry (r, 0) lies in the block of the point with row block r / 256. -/
theorem cover_bounds (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, -, ht⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk_bounds]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1 ≤ (i 1).val ∧ (i 1).val < win1_2.index t (1 : Fin 2) * 1 + 1; omega

/-- The sign array after the launch is the signs of the input array as the launch finds it. -/
theorem final_signs (c : Dev nD) : (dat1 (F := Ideal) V c).arrAt 1 cfg1.N = Gs (V c main_v0) :=
  (dat1 (F := Ideal) V c).arrAt_eq_of_cover 1 _ (fun t _ => flushed_signs V c t) cover_signs

/-- The column of bounds after the launch is the row bounds of the input array as the launch finds it. -/
theorem final_bounds (c : Dev nD) : (dat1 (F := Ideal) V c).arrAt 2 cfg1.N = Gb (V c main_v0) :=
  (dat1 (F := Ideal) V c).arrAt_eq_of_cover 2 _ (fun t _ => flushed_bounds V c t) cover_bounds

end Cert.KernelIdeal.Binarise.R1

namespace Cert.KernelIdeal.Binarise

open Cert.KernelIdeal Cert.KernelIdeal.Gen Idealize.ShloMosaic Idealize.ShloMosaic.TcCoe Idealize.SL.Sem
open Idealize.ShloMosaic.ValueIdx
open Cert.SignDense

/-- After the launch, entry (r, d) of the sign array is the sign of the input's entry (r, d). -/
theorem region1_signs (V : (c : Dev nD) → (b : Ref sig .tc) → Buf (Elt Ideal) ((c : Thread nD τ).loc b)) (c : Dev nD)
    (r : Fin 8192) (d : Fin 4096) :
    ((Gen.dat1 (F := Ideal) V c).arrAt 1 cfg1.N : S8192x4096.Idx → EReal) (ix2 r d)
      = sgn ((V c main_v0 : S8192x4096.Idx → EReal) (ix2 r d)) :=
  congrFun (R1.final_signs V c) (ix2 r d)

/-- After the launch, entry (r, 0) of the column of bounds is the bound of row r of the input. -/
theorem region1_bounds (V : (c : Dev nD) → (b : Ref sig .tc) → Buf (Elt Ideal) ((c : Thread nD τ).loc b)) (c : Dev nD)
    (r : Fin 8192) (u : Fin 1) :
    ((Gen.dat1 (F := Ideal) V c).arrAt 2 cfg1.N : S8192x1.Idx → EReal) (ix2 r u)
      = bound (fun dd : Fin 4096 => (V c main_v0 : S8192x4096.Idx → EReal) (ix2 r dd)) :=
  (congrFun (R1.final_bounds V c) (ix2 r u)).trans
    (congrArg bound (funext fun dd => congrArg (V c main_v0 : S8192x4096.Idx → EReal)
      (congrArg (fun a : Fin 8192 => (ix2 a dd : S8192x4096.Idx)) (show (ix2 r u : S8192x1.Idx) 0 = r from rfl))))

end Cert.KernelIdeal.Binarise

end
-- ==== Proof.KernelValue.lean ====
/-
  The idealized kernel's result, entry by entry, as the function of the three arguments the specification names.
  Entry (b, s, f) of the result is entry (b * 2048 + s, f) of the third launch's output, which is the row of activation
  signs against the column of weight signs, scaled by a quarter of the row's bound times the column's bound, plus the
  bias; the signs and bounds are what the first two launches leave, read from the weights as launched and from the
  re-laid activations, whose row b * 2048 + s is the argument's row (b, s).
-/
import proofs.«152927_j6047313952873_2_alg».proof.Proof.Spec
import proofs.«152927_j6047313952873_2_alg».proof.Proof.HostStages
import proofs.«152927_j6047313952873_2_alg».proof.Proof.Region2
import proofs.«152927_j6047313952873_2_alg».proof.Proof.Region0
import proofs.«152927_j6047313952873_2_alg».proof.Proof.Region1

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.SignDense

variable (m : (ℓ : Loc nD τ sig) → Buf (Elt Ideal) ℓ) (ρ : Dev nD → PrngReg)

/-- The weight signs the third launch reads are the first launch's, of the weights as launched. -/
theorem weight_signs (c : Dev nD) (d : Fin 4096) (f : Fin 16384) :
    (V3 m ρ c main_v2_0 : S4096x16384.Idx → EReal) (ix2 d f) = sgn (m ((c : Thread nD τ).loc main_arg1) (ix2 d f)) := by
  have e : V3 m ρ c main_v2_0 = (dat0 (F := Ideal) (V1 m ρ) c).arrAt 1 cfg0.N :=
    (W3_of_ne m ρ c main_v2_0 (by decide)).trans (W2_arr m ρ c 1)
  rw [e, Cert.KernelIdeal.Binarise.region0_signs (V1 m ρ) c d f]
  exact congrArg (fun a : S4096x16384.Idx → EReal => sgn (a (ix2 d f))) (HostStages.weights_eq m ρ c)

/-- The column bounds the third launch reads are the first launch's. -/
theorem weight_bounds (c : Dev nD) (u : Fin 1) (f : Fin 16384) :
    (V3 m ρ c main_v2_1 : S1x16384.Idx → EReal) (ix2 u f) = bound (fun d : Fin 4096 => m ((c : Thread nD τ).loc main_arg1) (ix2 d f)) := by
  have e : V3 m ρ c main_v2_1 = (dat0 (F := Ideal) (V1 m ρ) c).arrAt 2 cfg0.N :=
    (W3_of_ne m ρ c main_v2_1 (by decide)).trans (W2_arr m ρ c 2)
  rw [e, Cert.KernelIdeal.Binarise.region0_bounds (V1 m ρ) c u f]
  exact congrArg (fun a : S4096x16384.Idx → EReal => bound (fun d : Fin 4096 => a (ix2 d f))) (HostStages.weights_eq m ρ c)

/-- The re-laid activations reach the second launch untouched by the first. -/
theorem rows_in (c : Dev nD) : V2 m ρ c main_v0 = W1 m ρ c (Proc.devRef .tc main_v0) :=
  W2_of_ne m ρ c main_v0 (by decide)

/-- The activation signs the third launch reads are the second launch's, of the argument's row (b, s). -/
theorem act_signs (c : Dev nD) (b : Fin 4) (s : Fin 2048) (d : Fin 4096) (r : Fin 8192) (hr : r.val = b.val * 2048 + s.val) :
    (V3 m ρ c main_v3_0 : S8192x4096.Idx → EReal) (ix2 r d) = sgn (m ((c : Thread nD τ).loc main_arg0) (ix3 b s d)) := by
  have e : V3 m ρ c main_v3_0 = (dat1 (F := Ideal) (V2 m ρ) c).arrAt 1 cfg1.N := W3_arr m ρ c 1
  rw [e, Cert.KernelIdeal.Binarise.region1_signs (V2 m ρ) c r d]
  refine congrArg sgn ?_
  rw [rows_in]
  exact HostStages.rows_apply m ρ c b s d r hr

/-- The row bounds the third launch reads are the second launch's. -/
theorem act_bounds (c : Dev nD) (b : Fin 4) (s : Fin 2048) (u : Fin 1) (r : Fin 8192) (hr : r.val = b.val * 2048 + s.val) :
    (V3 m ρ c main_v3_1 : S8192x1.Idx → EReal) (ix2 r u) = bound (fun d : Fin 4096 => m ((c : Thread nD τ).loc main_arg0) (ix3 b s d)) := by
  have e : V3 m ρ c main_v3_1 = (dat1 (F := Ideal) (V2 m ρ) c).arrAt 2 cfg1.N := W3_arr m ρ c 2
  rw [e, Cert.KernelIdeal.Binarise.region1_bounds (V2 m ρ) c r u]
  refine congrArg bound (funext fun d => ?_)
  rw [rows_in]
  exact HostStages.rows_apply m ρ c b s d r hr

/-- The bias row the third launch reads is the host's, untouched by the first two launches. -/
theorem bias_in (c : Dev nD) (u : Fin 1) (f : Fin 16384) :
    (V3 m ρ c main_v1 : S1x16384.Idx → EReal) (ix2 u f) = m ((c : Thread nD τ).loc main_arg2) (ix1 f) := by
  have e : V3 m ρ c main_v1 = W1 m ρ c (Proc.devRef .tc main_v1) :=
    (W3_of_ne m ρ c main_v1 (by decide)).trans (W2_of_ne m ρ c main_v1 (by decide))
  rw [e]
  exact HostStages.bias_apply m ρ c u f

/-- THE KERNEL'S RESULT at (b, s, f) is the specification's entry of the argument's row (b, s), the weights' column
    f and the f-th bias. -/
theorem result_entry (c : Dev nD) (b : Fin 4) (s : Fin 2048) (f : Fin 16384) :
    W5 m ρ c (Proc.devRef .tc main_v5) (ix3 b s f)
      = entry (fun d => m ((c : Thread nD τ).loc main_arg0) (ix3 b s d))
          (fun d => m ((c : Thread nD τ).loc main_arg1) (ix2 d f)) (m ((c : Thread nD τ).loc main_arg2) (ix1 f)) := by
  have hlt : b.val * 2048 + s.val < 8192 := by have := b.isLt; have := s.isLt; omega
  rw [HostStages.result_apply m ρ c b s f ⟨b.val * 2048 + s.val, hlt⟩ rfl]
  have e : W4 m ρ c (Proc.devRef .tc main_v4) = (dat2 (F := Ideal) (V3 m ρ) c).arrAt 5 cfg2.N := W4_arr m ρ c 5
  rw [e, Dense.final (V3 m ρ) c]
  refine (Dense.G_apply _ _ _ _ _ ⟨b.val * 2048 + s.val, hlt⟩ f).trans ?_
  rw [act_bounds m ρ c b s (0 : Fin 1) ⟨b.val * 2048 + s.val, hlt⟩ rfl, weight_bounds m ρ c (0 : Fin 1) f,
    bias_in m ρ c (0 : Fin 1) f]
  refine congrArg₂ (· + ·) (congrArg₂ (· * ·) (Finset.sum_congr rfl fun k _ => ?_) rfl) rfl
  rw [act_signs m ρ c b s k ⟨b.val * 2048 + s.val, hlt⟩ rfl, weight_signs m ρ c k f]

end Cert.KernelIdeal.Whole

end
-- ==== Proof.Consts.lean ====
/-
  The float words the two programs spell, as the extended reals they denote: 0, 1, -1, 1/4, 1/2, 2^-23, -infinity,
  and the clip level 16760439/16777216 (the float nearest 0.999) with its negative.
-/
import Idealize.ShloMosaic.PureOps.Ideal

noncomputable section

namespace Cert.SignDense.Consts

open Idealize.ShloMosaic

theorem w_zero : Ideal.ofBits .f32 0x00000000#32 = 0 := by
  simp [Ideal.ofBits, Ideal.ieee]

theorem w_one : Ideal.ofBits .f32 0x3F800000#32 = ((1 : ℝ) : EReal) := by
  simp [Ideal.ofBits, Ideal.ieee, -EReal.coe_mul]; norm_num

theorem w_neg_one : Ideal.ofBits .f32 0xBF800000#32 = ((-1 : ℝ) : EReal) := by
  simp [Ideal.ofBits, Ideal.ieee, -EReal.coe_mul]; norm_num

theorem w_quarter : Ideal.ofBits .f32 0x3E800000#32 = ((1 / 4 : ℝ) : EReal) := by
  simp [Ideal.ofBits, Ideal.ieee, -EReal.coe_mul]; norm_num

theorem w_half : Ideal.ofBits .f32 0x3F000000#32 = ((1 / 2 : ℝ) : EReal) := by
  simp [Ideal.ofBits, Ideal.ieee, -EReal.coe_mul]; norm_num

theorem w_eps : Ideal.ofBits .f32 0x34000000#32 = ((1 / 8388608 : ℝ) : EReal) := by
  simp [Ideal.ofBits, Ideal.ieee, -EReal.coe_mul]; norm_num

theorem w_neg_inf : Ideal.ofBits .f32 0xFF800000#32 = ⊥ := by
  simp [Ideal.ofBits, Ideal.ieee]

theorem w_clip : Ideal.ofBits .f32 0x3F7FBE77#32 = ((16760439 / 16777216 : ℝ) : EReal) := by
  simp [Ideal.ofBits, Ideal.ieee, -EReal.coe_mul]; norm_num

theorem w_neg_clip : Ideal.ofBits .f32 0xBF7FBE77#32 = ((-(16760439 / 16777216) : ℝ) : EReal) := by
  simp [Ideal.ofBits, Ideal.ieee, -EReal.coe_mul]; norm_num

end Cert.SignDense.Consts

end
-- ==== Proof.SignMath.lean ====
/-
  The arithmetic of the sign quantisation, on the extended reals.

  A family of real numbers has a bound B (its largest magnitude plus 2^-23) that is a positive real and strictly
  exceeds every magnitude.  Scaling an entry r by 1/B, clipping to [-c, c] with c < 1, taking the floor and adding
  one half gives +1/2 when 0 ≤ r (the clipped value lies in [0, c], so its floor is 0) and -1/2 when r < 0 (it lies
  in [-c, 0), so its floor is -1); dividing by 1/B again gives the sign of r times B/2.  A sum of products of two
  such values is the sum of the sign products times a quarter of the product of the two bounds.
-/
import Idealize.ShloMosaic.PureOps.Ideal
import proofs.«152927_j6047313952873_2_alg».proof.Proof.Spec
import proofs.«152927_j6047313952873_2_alg».proof.Proof.Consts

noncomputable section

namespace Cert.SignDense

open Idealize.ShloMosaic
open Cert.SignDense.Consts

/-! ## The embedding of the reals commutes with max, min and finite sums -/

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

theorem coe_sum' {ι : Type} (s : Finset ι) (a : ι → ℝ) :
    (∑ d ∈ s, ((a d : ℝ) : EReal)) = ((∑ d ∈ s, a d : ℝ) : EReal) := by
  classical
  refine Finset.induction_on s ?_ ?_
  · simp
  · intro x t hx ih
    rw [Finset.sum_insert hx, Finset.sum_insert hx, ih, EReal.coe_add]

/-! ## The sign -/

/-- The sign of a nonnegative real is the real 1. -/
theorem sgn_coe_of_nonneg {r : ℝ} (h : 0 ≤ r) : sgn (r : EReal) = ((1 : ℝ) : EReal) := by
  unfold sgn
  rw [w_zero, w_one, w_neg_one]
  have hc : Ideal.cmp .oge (r : EReal) 0 = 1 := by
    show BitVec.ofBool (decide ((0 : EReal) ≤ (r : EReal))) = 1
    rw [decide_eq_true (EReal.coe_nonneg.mpr h)]; rfl
  rw [hc]
  show (if (1 : BitVec 1) = 1 then _ else _) = _
  rw [if_pos rfl]

/-- The sign of a negative real is the real -1. -/
theorem sgn_coe_of_neg {r : ℝ} (h : r < 0) : sgn (r : EReal) = ((-1 : ℝ) : EReal) := by
  unfold sgn
  rw [w_zero, w_one, w_neg_one]
  have hc : Ideal.cmp .oge (r : EReal) 0 = 0 := by
    show BitVec.ofBool (decide ((0 : EReal) ≤ (r : EReal))) = 0
    rw [decide_eq_false (not_le.mpr (EReal.coe_neg'.mpr h))]; rfl
  rw [hc]
  show (if (0 : BitVec 1) = 1 then _ else _) = _
  rw [if_neg (by decide)]

/-- The sign of a real is a real. -/
theorem sgn_coe_real (r : ℝ) : ∃ s : ℝ, sgn (r : EReal) = (s : EReal) := by
  rcases le_or_gt 0 r with h | h
  · exact ⟨1, sgn_coe_of_nonneg h⟩
  · exact ⟨-1, sgn_coe_of_neg h⟩

/-! ## The bound -/

/-- The bound of a nonempty family of reals is a positive real that strictly exceeds every magnitude. -/
theorem bound_real {n : ℕ} (f : Fin n → EReal) (hf : ∀ d, ∃ r : ℝ, f d = (r : EReal)) (d0 : Fin n) :
    ∃ B : ℝ, bound f = (B : EReal) ∧ 0 < B ∧ ∀ (d : Fin n) (r : ℝ), f d = (r : EReal) → |r| < B := by
  choose g hg using hf
  have habs : ∀ d, max (f d) (-(f d)) = ((|g d| : ℝ) : EReal) := by
    intro d
    rw [hg d, ← EReal.coe_neg, ← coe_max', abs_eq_max_neg]
  have hfun : (fun d => max (f d) (-(f d))) = fun d => ((|g d| : ℝ) : EReal) := funext habs
  obtain ⟨m, hm⟩ : ∃ m : EReal, m = (Finset.univ : Finset (Fin n)).fold max (Ideal.ofBits .f32 0xFF800000#32)
      (fun d => max (f d) (-(f d))) := ⟨_, rfl⟩
  have hle : ∀ d, ((|g d| : ℝ) : EReal) ≤ m := by
    intro d
    rw [hm, hfun]
    exact (Finset.le_fold_max _).mpr (Or.inr ⟨d, Finset.mem_univ d, le_rfl⟩)
  have hlt : m < ⊤ := by
    rw [hm, hfun, w_neg_inf]
    exact (Finset.fold_max_lt _).mpr ⟨bot_lt_top, fun d _ => EReal.coe_lt_top _⟩
  have hbot : m ≠ ⊥ := by
    intro h
    have h1 := hle d0
    rw [h] at h1
    exact absurd h1 (not_le.mpr (EReal.bot_lt_coe _))
  have hmr : ((m.toReal : ℝ) : EReal) = m := EReal.coe_toReal (ne_of_lt hlt) hbot
  have hler : ∀ d, |g d| ≤ m.toReal := fun d => by
    have h1 : ((|g d| : ℝ) : EReal) ≤ ((m.toReal : ℝ) : EReal) := by rw [hmr]; exact hle d
    exact EReal.coe_le_coe_iff.mp h1
  have heps : (0 : ℝ) < 1 / 8388608 := by norm_num
  refine ⟨m.toReal + 1 / 8388608, ?_, ?_, ?_⟩
  · unfold bound
    rw [← hm, w_eps, EReal.coe_add, hmr]
  · have h1 := hler d0
    have h2 := abs_nonneg (g d0)
    linarith
  · intro d r hr
    have e : r = g d := EReal.coe_eq_coe_iff.mp (hr.symm.trans (hg d))
    have h1 := hler d
    rw [e]
    linarith

/-! ## One quantised value -/

/-- Scale by the reciprocal of the bound, clip, floor, add one half, divide by the reciprocal again: the sign times
    half the bound. -/
theorem quantised_eq {n : ℕ} (f : Fin n → EReal) (hf : ∀ d, ∃ r : ℝ, f d = (r : EReal)) (d : Fin n) :
    Ideal.div
        (Ideal.liftRound Int.floor
            (min (Ideal.ofBits .f32 0x3F7FBE77#32)
              (max (Ideal.ofBits .f32 0xBF7FBE77#32)
                (f d * Ideal.div (Ideal.ofBits .f32 0x3F800000#32) (bound f))))
          + Ideal.ofBits .f32 0x3F000000#32)
        (Ideal.div (Ideal.ofBits .f32 0x3F800000#32) (bound f))
      = sgn (f d) * (((1 / 2 : ℝ) : EReal) * bound f) := by
  obtain ⟨B, hB, hBpos, -⟩ := bound_real f hf d
  obtain ⟨r, hr⟩ := hf d
  have hB0 : B ≠ 0 := ne_of_gt hBpos
  have hinv : (0 : ℝ) < 1 / B := by positivity
  have hs : Ideal.div (Ideal.ofBits .f32 0x3F800000#32) (bound f) = ((1 / B : ℝ) : EReal) := by
    rw [hB, Ideal.div_coe hB0, w_one, ← EReal.coe_mul, one_mul]
  rw [hs, hr, hB, w_clip, w_neg_clip, w_half, ← EReal.coe_mul r (1 / B), ← coe_max', ← coe_min', Ideal.liftRound_coe,
    ← EReal.coe_add, Ideal.div_coe (ne_of_gt hinv), one_div_one_div]
  rcases le_or_gt 0 r with h0 | h0
  · have ht : 0 ≤ r * (1 / B) := mul_nonneg h0 hinv.le
    have hfl : ⌊min (16760439 / 16777216 : ℝ) (max (-(16760439 / 16777216)) (r * (1 / B)))⌋ = 0 :=
      Int.floor_eq_zero_iff.mpr
        ⟨le_min (by norm_num) (le_max_of_le_right ht), lt_of_le_of_lt (min_le_left _ _) (by norm_num)⟩
    rw [sgn_coe_of_nonneg h0, hfl, ← EReal.coe_mul, ← EReal.coe_mul, ← EReal.coe_mul]
    refine congrArg (fun z : ℝ => (z : EReal)) ?_
    rw [Int.cast_zero]; ring
  · have ht : r * (1 / B) < 0 := mul_neg_of_neg_of_pos h0 hinv
    have hc1 : ((-1 : ℤ) : ℝ) = -1 := by norm_num
    have hfl : ⌊min (16760439 / 16777216 : ℝ) (max (-(16760439 / 16777216)) (r * (1 / B)))⌋ = -1 := by
      refine Int.floor_eq_iff.mpr ⟨?_, ?_⟩
      · rw [hc1]
        exact le_trans (by norm_num) (le_min (by norm_num : (-(16760439 / 16777216) : ℝ) ≤ 16760439 / 16777216)
          (le_max_left _ _))
      · rw [hc1, show (-1 : ℝ) + 1 = 0 by norm_num]
        exact lt_of_le_of_lt (min_le_right _ _) (max_lt (by norm_num) ht)
    rw [sgn_coe_of_neg h0, hfl, ← EReal.coe_mul, ← EReal.coe_mul, ← EReal.coe_mul]
    refine congrArg (fun z : ℝ => (z : EReal)) ?_
    rw [hc1]; ring

/-! ## One entry -/

/-- The sum of the products of the quantised values of a row and a column, plus the bias, is the entry: the sum of
    the sign products times a quarter of the product of the two bounds, plus the bias. -/
theorem entry_of_halves (x k : Fin 4096 → EReal) (hx : ∀ d, ∃ r : ℝ, x d = (r : EReal))
    (hk : ∀ d, ∃ r : ℝ, k d = (r : EReal)) (bias : EReal) :
    (∑ d : Fin 4096, (sgn (x d) * (((1 / 2 : ℝ) : EReal) * bound x)) * (sgn (k d) * (((1 / 2 : ℝ) : EReal) * bound k)))
        + bias
      = entry x k bias := by
  obtain ⟨Bx, hBx, -, -⟩ := bound_real x hx ⟨0, by norm_num⟩
  obtain ⟨Bk, hBk, -, -⟩ := bound_real k hk ⟨0, by norm_num⟩
  have hsx' : ∀ d, ∃ s : ℝ, sgn (x d) = (s : EReal) := fun d => by
    obtain ⟨r, hr⟩ := hx d; rw [hr]; exact sgn_coe_real r
  have hsk' : ∀ d, ∃ s : ℝ, sgn (k d) = (s : EReal) := fun d => by
    obtain ⟨r, hr⟩ := hk d; rw [hr]; exact sgn_coe_real r
  choose sx hsx using hsx'
  choose sk hsk using hsk'
  have hL : (∑ d : Fin 4096, (sgn (x d) * (((1 / 2 : ℝ) : EReal) * (Bx : EReal)))
        * (sgn (k d) * (((1 / 2 : ℝ) : EReal) * (Bk : EReal))))
      = (((∑ d : Fin 4096, sx d * sk d) * ((1 / 4 * Bx) * Bk) : ℝ) : EReal) := by
    rw [Finset.sum_mul, ← coe_sum']
    refine Finset.sum_congr rfl fun d _ => ?_
    rw [hsx d, hsk d]
    simp only [← EReal.coe_mul]
    refine congrArg (fun z : ℝ => (z : EReal)) ?_
    ring
  have hR : (∑ d : Fin 4096, sgn (x d) * sgn (k d)) * ((((1 / 4 : ℝ) : EReal) * (Bx : EReal)) * (Bk : EReal))
      = (((∑ d : Fin 4096, sx d * sk d) * ((1 / 4 * Bx) * Bk) : ℝ) : EReal) := by
    have e : (∑ d : Fin 4096, sgn (x d) * sgn (k d)) = ((∑ d : Fin 4096, sx d * sk d : ℝ) : EReal) := by
      rw [← coe_sum']
      exact Finset.sum_congr rfl fun d _ => by rw [hsx d, hsk d, EReal.coe_mul]
    rw [e, ← EReal.coe_mul, ← EReal.coe_mul, ← EReal.coe_mul]
  unfold entry
  rw [hBx, hBk, w_quarter, hL, hR]

end Cert.SignDense

end
-- ==== Proof.RefIsSpec.lean ====
/-
  The reference program computes the specified entry.

  Read entry by entry, the reference takes the bound of each column of the weights (the maximum of the magnitudes
  down the column, from -infinity, plus 2^-23) and of each row of the activations, quantises every weight and every
  activation to its sign times half its bound (scale by the reciprocal of the bound, clip, floor, add one half, divide
  by the reciprocal), contracts the two quantised arrays over the 4096 shared positions and adds the column's bias.
  For inputs whose entries are all real this is the entry of the specification.
-/
import proofs.«152927_j6047313952873_2_alg».proof.Proof.Gen.ReferenceIdeal.Read
import proofs.«152927_j6047313952873_2_alg».proof.Proof.SignMath

noncomputable section

namespace Cert.SignDense.Ref

open Idealize.ShloMosaic Idealize.ShloMosaic.ValueIdx
open Cert.ReferenceIdeal Cert.ReferenceIdeal.Gen Cert.ReferenceIdeal.Read
open Cert.SignDense

/-! ## Putting a dropped coordinate back -/

/-- Dropping the first axis of [m, n]: the kept index t with coordinate k put back is (k, t). -/
theorem lift_first2 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Dropping the last axis of [a, b, c]: the kept index (i, j) with coordinate k put back is (i, j, k). -/
theorem lift_last3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

theorem red_cols : S4096x16384.Reduces [0] S16384 := by decide
theorem red_rows : S4x2048x4096.Reduces [2] S4x2048 := by decide

/-! ## The two maxima of magnitudes -/

/-- The maximum of the magnitudes down column f of the weights. -/
theorem colMax_apply (x1 : (⟨S4096x16384, .f32⟩ : BufTy).Contents (Elt Ideal)) (f : Fin 16384) :
    val_main_v1 (F := Ideal) x1 (ix1 f)
      = (Finset.univ : Finset (Fin 4096)).fold max (Ideal.ofBits .f32 0xFF800000#32)
          (fun d => max (x1 (ix2 d f)) (-(x1 (ix2 d f)))) := by
  unfold val_main_v1
  rw [Host.reduce_eq_fold_single FloatOps.maximumf _ _ reducesTo_S4096x16384_S16384_d0 red_cols h_S_]
  have hf : (val_main_v0 (F := Ideal) x1 ∘ red_cols.lift (ix1 f))
      = fun d : Fin 4096 => max (x1 (ix2 d f)) (-(x1 (ix2 d f))) :=
    funext fun d => by
      show max (x1 (red_cols.lift (ix1 f) d)) (-(x1 (red_cols.lift (ix1 f) d))) = _
      rw [lift_first2 red_cols f d]
      rfl
  exact congrArg (fun g => Finset.fold max (Ideal.ofBits .f32 0xFF800000#32) g (Finset.univ : Finset (Fin 4096))) hf

/-- The maximum of the magnitudes along row (b, s) of the activations. -/
theorem rowMax_apply (x0 : (⟨S4x2048x4096, .f32⟩ : BufTy).Contents (Elt Ideal)) (b : Fin 4) (s : Fin 2048) :
    val_main_v16 (F := Ideal) x0 (ix2 b s)
      = (Finset.univ : Finset (Fin 4096)).fold max (Ideal.ofBits .f32 0xFF800000#32)
          (fun d => max (x0 (ix3 b s d)) (-(x0 (ix3 b s d)))) := by
  unfold val_main_v16
  rw [Host.reduce_eq_fold_single FloatOps.maximumf _ _ reducesTo_S4x2048x4096_S4x2048_d2 red_rows h_S_]
  have hf : (val_main_v15 (F := Ideal) x0 ∘ red_rows.lift (ix2 b s))
      = fun d : Fin 4096 => max (x0 (ix3 b s d)) (-(x0 (ix3 b s d))) :=
    funext fun d => by
      show max (x0 (red_rows.lift (ix2 b s) d)) (-(x0 (red_rows.lift (ix2 b s) d))) = _
      rw [lift_last3 red_rows b s d]
      rfl
  exact congrArg (fun g => Finset.fold max (Ideal.ofBits .f32 0xFF800000#32) g (Finset.univ : Finset (Fin 4096))) hf

/-! ## The two reciprocals of the bounds -/

/-- The reciprocal of the bound of column f. -/
theorem colScale_apply (x1 : (⟨S4096x16384, .f32⟩ : BufTy).Contents (Elt Ideal)) (u : Fin 1) (f : Fin 16384) :
    val_main_v6 (F := Ideal) x1 (ix2 u f)
      = Ideal.div (Ideal.ofBits .f32 0x3F800000#32) (bound (fun d : Fin 4096 => x1 (ix2 d f))) := by
  rw [val_main_v6_apply, val_main_v5_apply, val_main_cst_1_apply, val_main_v4_apply, val_main_v2_apply,
    val_main_v3_apply, val_main_cst_0_apply]
  have e : idx_main_v2 (ix2 u f) = ix1 f := funext fun a => match a with | ⟨0, _⟩ => rfl
  rw [e, colMax_apply]
  rfl

/-- The reciprocal of the bound of row (b, s). -/
theorem rowScale_apply (x0 : (⟨S4x2048x4096, .f32⟩ : BufTy).Contents (Elt Ideal)) (b : Fin 4) (s : Fin 2048) (u : Fin 1) :
    val_main_v21 (F := Ideal) x0 (ix3 b s u)
      = Ideal.div (Ideal.ofBits .f32 0x3F800000#32) (bound (fun d : Fin 4096 => x0 (ix3 b s d))) := by
  rw [val_main_v21_apply, val_main_v20_apply, val_main_cst_7_apply, val_main_v19_apply, val_main_v17_apply,
    val_main_v18_apply, val_main_cst_6_apply]
  have e : idx_main_v17 (ix3 b s u) = ix2 b s := funext fun a => match a with | ⟨0, _⟩ => rfl | ⟨1, _⟩ => rfl
  rw [e, rowMax_apply]
  rfl

/-! ## The two quantised arrays -/

/-- The quantised weight at (d, f): its sign times half the bound of column f. -/
theorem kq_apply (x1 : (⟨S4096x16384, .f32⟩ : BufTy).Contents (Elt Ideal)) (h1 : ∀ i, ∃ r : ℝ, x1 i = (r : EReal))
    (d : Fin 4096) (f : Fin 16384) :
    val_main_v14 (F := Ideal) x1 (ix2 d f)
      = sgn (x1 (ix2 d f)) * (((1 / 2 : ℝ) : EReal) * bound (fun d : Fin 4096 => x1 (ix2 d f))) := by
  rw [val_main_v14_apply, val_main_v13_apply, val_main_v12_apply, val_main_v11_apply, val_main_cst_4_apply,
    val_main_v10_apply, val_main_v9_apply, val_main_call0_v4_apply, val_main_call0_v3_apply, val_main_cst_3_apply,
    val_main_call0_v2_apply, val_main_call0_v1_apply, val_main_call0_v0_apply, val_main_cst_2_apply,
    val_main_v8_apply, val_main_v7_apply]
  have e13 : idx_main_v13 (ix2 d f) = ix2 (0 : Fin 1) f := funext fun a => match a with | ⟨0, _⟩ => rfl | ⟨1, _⟩ => rfl
  have e7 : idx_main_v7 (ix2 d f) = ix2 (0 : Fin 1) f := funext fun a => match a with | ⟨0, _⟩ => rfl | ⟨1, _⟩ => rfl
  rw [e13, e7, colScale_apply]
  exact quantised_eq (fun d : Fin 4096 => x1 (ix2 d f)) (fun d => h1 (ix2 d f)) d

/-- The quantised activation at (b, s, d): its sign times half the bound of row (b, s). -/
theorem xq_apply (x0 : (⟨S4x2048x4096, .f32⟩ : BufTy).Contents (Elt Ideal)) (h0 : ∀ i, ∃ r : ℝ, x0 i = (r : EReal))
    (b : Fin 4) (s : Fin 2048) (d : Fin 4096) :
    val_main_v29 (F := Ideal) x0 (ix3 b s d)
      = sgn (x0 (ix3 b s d)) * (((1 / 2 : ℝ) : EReal) * bound (fun d : Fin 4096 => x0 (ix3 b s d))) := by
  rw [val_main_v29_apply, val_main_v28_apply, val_main_v27_apply, val_main_v26_apply, val_main_cst_10_apply,
    val_main_v25_apply, val_main_v24_apply, val_main_call1_v4_apply, val_main_call1_v3_apply, val_main_cst_9_apply,
    val_main_call1_v2_apply, val_main_call1_v1_apply, val_main_call1_v0_apply, val_main_cst_8_apply,
    val_main_v23_apply, val_main_v22_apply]
  have e28 : idx_main_v28 (ix3 b s d) = ix3 b s (0 : Fin 1) :=
    funext fun a => match a with | ⟨0, _⟩ => rfl | ⟨1, _⟩ => rfl | ⟨2, _⟩ => rfl
  have e22 : idx_main_v22 (ix3 b s d) = ix3 b s (0 : Fin 1) :=
    funext fun a => match a with | ⟨0, _⟩ => rfl | ⟨1, _⟩ => rfl | ⟨2, _⟩ => rfl
  rw [e28, e22, rowScale_apply]
  exact quantised_eq (fun d : Fin 4096 => x0 (ix3 b s d)) (fun d => h0 (ix3 b s d)) d

/-! ## The bias -/

/-- The bias broadcast over the rows, at (b, s, f): the bias of column f. -/
theorem bias_apply (x2 : (⟨S16384, .f32⟩ : BufTy).Contents (Elt Ideal)) (b : Fin 4) (s : Fin 2048) (f : Fin 16384) :
    val_main_v32 (F := Ideal) x2 (ix3 b s f) = x2 (ix1 f) := by
  rw [val_main_v32_apply, val_main_v31_apply]
  exact congrArg x2 (funext fun a => match a with | ⟨0, _⟩ => rfl)

/-! ## The result -/

/-- Entry (b, s, f) of the reference's result is the specified entry of row (b, s), column f and the bias at f. -/
theorem ref_is_spec (x0 : (⟨S4x2048x4096, .f32⟩ : BufTy).Contents (Elt Ideal))
    (x1 : (⟨S4096x16384, .f32⟩ : BufTy).Contents (Elt Ideal)) (x2 : (⟨S16384, .f32⟩ : BufTy).Contents (Elt Ideal))
    (h0 : ∀ i, ∃ r : ℝ, x0 i = (r : EReal)) (h1 : ∀ i, ∃ r : ℝ, x1 i = (r : EReal))
    (b : Fin 4) (s : Fin 2048) (f : Fin 16384) :
    val_main_v33 (F := Ideal) x0 x1 x2 (ix3 b s f)
      = entry (fun d => x0 (ix3 b s d)) (fun d => x1 (ix2 d f)) (x2 (ix1 f)) := by
  rw [val_main_v33_apply, val_main_v30_apply, bias_apply]
  have hsum : (∑ k : Fin 4096, (val_main_v29 (F := Ideal) x0) (lidx_main_v30 (ix3 b s f) k)
        * (val_main_v14 (F := Ideal) x1) (ridx_main_v30 (ix3 b s f) k))
      = ∑ d : Fin 4096, (sgn (x0 (ix3 b s d)) * (((1 / 2 : ℝ) : EReal) * bound (fun d : Fin 4096 => x0 (ix3 b s d))))
          * (sgn (x1 (ix2 d f)) * (((1 / 2 : ℝ) : EReal) * bound (fun d : Fin 4096 => x1 (ix2 d f)))) :=
    Finset.sum_congr rfl fun k _ => by
      have el : lidx_main_v30 (ix3 b s f) k = ix3 b s k :=
        funext fun a => match a with | ⟨0, _⟩ => rfl | ⟨1, _⟩ => rfl | ⟨2, _⟩ => rfl
      have er : ridx_main_v30 (ix3 b s f) k = ix2 k f := funext fun a => match a with | ⟨0, _⟩ => rfl | ⟨1, _⟩ => rfl
      rw [el, er, xq_apply x0 h0, kq_apply x1 h1]
  rw [hsum]
  exact entry_of_halves (fun d => x0 (ix3 b s d)) (fun d => x1 (ix2 d f)) (fun d => h0 (ix3 b s d))
    (fun d => h1 (ix2 d f)) (x2 (ix1 f))

end Cert.SignDense.Ref

end
-- ==== Proof.Finite.lean ====
/-
  Under the precondition every input entry is a real number.  The precondition is the conjunction, over the three
  inputs, of "every entry's magnitude max v (-v) is below the word of +infinity"; an extended real with that property is
  neither infinity.
-/
import proofs.«152927_j6047313952873_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.SignDense.Finite

open Idealize.ShloMosaic Idealize.ShloMosaic.ValueIdx

instance : Subsingleton Cert.Pre_finite_inputs.S_.Idx := ⟨fun a b => funext fun d => d.elim0⟩

/-- The word of +infinity denotes the top element. -/
theorem w_inf : Ideal.ofBits .f32 0x7F800000#32 = ⊤ := by
  simp [Ideal.ofBits, Ideal.ieee]

/-- An extended real whose magnitude compares below +infinity is a real. -/
theorem real_of_lt (x : EReal) (h : Ideal.cmp .olt (max x (-x)) (Ideal.ofBits .f32 0x7F800000#32) = 1#1) :
    ∃ r : ℝ, x = (r : EReal) := by
  rw [w_inf] at h
  have hlt : max x (-x) < ⊤ := by
    by_contra hc
    simp [Ideal.cmp, hc] at h
  have h1 : x < ⊤ := lt_of_le_of_lt (le_max_left _ _) hlt
  have h2 : -x < ⊤ := lt_of_le_of_lt (le_max_right _ _) hlt
  induction x using EReal.rec with
  | bot => simp at h2
  | coe r => exact ⟨r, rfl⟩
  | top => simp at h1

variable [Cert.Pre_finite_inputs.Facts]

/-- The precondition makes every entry of each input a real. -/
theorem all_real (a0 : FVec Ideal Cert.Pre_finite_inputs.S4x2048x4096 .f32) (a1 : FVec Ideal Cert.Pre_finite_inputs.S4096x16384 .f32)
    (a2 : FVec Ideal Cert.Pre_finite_inputs.S16384 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ix0
  dsimp only [Cert.Pre_finite_inputs.fn] at e
  obtain ⟨e01, e2⟩ := (IntOp.andi_eq_one (c := _) (d := _)).mp e
  obtain ⟨e0, e1⟩ := (IntOp.andi_eq_one (c := _) (d := _)).mp e01
  refine ⟨fun i => real_of_lt (a0 i) ?_, fun i => real_of_lt (a1 i) ?_, fun i => real_of_lt (a2 i) ?_⟩
  · exact Host.reduce_andi_all _ _ _ _ ix0 e0 i
  · exact Host.reduce_andi_all _ _ _ _ ix0 e1 i
  · exact Host.reduce_andi_all _ _ _ _ ix0 e2 i

end Cert.SignDense.Finite

end
-- ==== Proof.lean ====
/-
  A dense layer on binarised operands: the kernel and its reference agree on the extended reals.

  Both programs take activations x (4 x 2048 x 4096), weights k (4096 x 16384) and a bias (16384), all finite.  A
  family of numbers (a row of x, a column of k) has a bound B = max |v| + 2^-23, which is positive and strictly above
  every magnitude in the family.  The reference quantises each entry v to (floor (clip (v * (1 / B))) + 1/2) / (1 / B)
  with the clip at +-16760439/16777216 < 1: the clipped value lies in [0, 1) for v >= 0 and in [-1, 0) for v < 0
  (v / B has the sign of v, and the clip keeps it inside (-1, 1)), so the floor is 0 or -1 and the quantised entry is
  +-B/2 by the sign of v.  Its result is the product of the two quantised operands plus the bias.  The kernel stores the signs (+-1) and the bounds separately,
  multiplies the sign matrices, and scales entry (r, f) by (1/4 * B_r) * B_f before adding the bias.  Over the reals
  the sum over d of (sx_d * B_r / 2) * (sk_d * B_f / 2) is (the sum of sx_d * sk_d) * ((B_r / 4) * B_f): the two agree,
  and finiteness of the inputs is what makes every quantity here a real.

  The three frames are the generated ones (the reference's is its generated run with the result dropped); the idealised
  kernel is the kernel's own text read over the extended reals.
-/
import proofs.«152927_j6047313952873_2_alg».proof.Defs
import proofs.«152927_j6047313952873_2_alg».proof.Proof.Gen.Kernel
import proofs.«152927_j6047313952873_2_alg».proof.Proof.Gen.Kernel.Skeleton
import proofs.«152927_j6047313952873_2_alg».proof.Proof.Gen.Kernel.Launch
import proofs.«152927_j6047313952873_2_alg».proof.Proof.Gen.Kernel.Points
import proofs.«152927_j6047313952873_2_alg».proof.Proof.Gen.Kernel.Frame
import proofs.«152927_j6047313952873_2_alg».proof.Proof.Gen.KernelIdeal
import proofs.«152927_j6047313952873_2_alg».proof.Proof.Gen.KernelIdeal.Skeleton
import proofs.«152927_j6047313952873_2_alg».proof.Proof.Gen.KernelIdeal.Launch
import proofs.«152927_j6047313952873_2_alg».proof.Proof.Gen.KernelIdeal.Points
import proofs.«152927_j6047313952873_2_alg».proof.Proof.Gen.KernelIdeal.Frame
import proofs.«152927_j6047313952873_2_alg».proof.Proof.Gen.ReferenceIdeal
import proofs.«152927_j6047313952873_2_alg».proof.Proof.Gen.Pre_finite_inputs
import proofs.«152927_j6047313952873_2_alg».proof.Proof.Gen.ReferenceIdeal.Read
import proofs.«152927_j6047313952873_2_alg».proof.Proof.KernelRun
import proofs.«152927_j6047313952873_2_alg».proof.Proof.KernelValue
import proofs.«152927_j6047313952873_2_alg».proof.Proof.RefIsSpec
import proofs.«152927_j6047313952873_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the specification's entries of the (agreeing) arguments. -/
theorem algebraic : Cert.algebraic_KernelIdeal_ReferenceIdeal := by
  intro m ρ m' ρ' hpre hagree
  refine ⟨fun c => Cert.KernelIdeal.Gen.W5 m ρ c (Proc.devRef .tc Cert.KernelIdeal.main_v5),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2]
  obtain ⟨h0, h1, h2⟩ := Cert.SignDense.Finite.all_real _ _ _ (hpre c)
  funext i
  obtain ⟨b, s, f, rfl⟩ : ∃ (b : Fin 4) (s : Fin 2048) (f : Fin 16384), i = ix3 b s f := ⟨i 0, i 1, i 2, eq_ix3 i⟩
  exact (Cert.SignDense.Ref.ref_is_spec _ _ _ h0 h1 b s f).trans (Cert.KernelIdeal.Whole.result_entry m ρ c b s f).symm

end Claims

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
